-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x96 .f32) (main_arg3 : FVec F S96 .f32) (main_arg4 : FVec F S96x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x64 .f32 := Host.absf main_arg4
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 96
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .bf16⟩
  | .hbm, ⟨47, _⟩ => ⟨S128x96, .bf16⟩
  | .hbm, ⟨48, _⟩ => ⟨S96x64, .bf16⟩
  | .hbm, ⟨49, _⟩ => ⟨S50000x96, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x96, .f32⟩
  | .hbm, ⟨59, _⟩ => ⟨S850000x1, .f32⟩
  | .hbm, ⟨60, _⟩ => ⟨S850000x96, .f32⟩
  | .hbm, ⟨61, _⟩ => ⟨S850000x96, .f32⟩
  | .hbm, ⟨62, _⟩ => ⟨S_, .f32⟩
  | .hbm, ⟨63, _⟩ => ⟨S50000x96, .f32⟩
  | .hbm, ⟨64, _⟩ => ⟨S850000x1, .i32⟩
  | .hbm, ⟨65, _⟩ => ⟨S50000x96, .f32⟩
  | .hbm, ⟨66, _⟩ => ⟨S1x96, .f32⟩
  | .hbm, ⟨67, _⟩ => ⟨S50000x96, .f32⟩
  | .hbm, ⟨68, _⟩ => ⟨S50000x96, .f32⟩
  | .hbm, ⟨69, _⟩ => ⟨S_, .f32⟩
  | .hbm, ⟨70, _⟩ => ⟨S50000x96, .f32⟩
  | .hbm, ⟨71, _⟩ => ⟨S50000x96, .f32⟩
  | .hbm, ⟨72, _⟩ => ⟨S50000x96, .bf16⟩
  | .hbm, ⟨73, _⟩ => ⟨S50000x64, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x64, .f32⟩
  | .hbm, ⟨83, _⟩ => ⟨S850000x1, .f32⟩
  | .hbm, ⟨84, _⟩ => ⟨S850000x64, .f32⟩
  | .hbm, ⟨85, _⟩ => ⟨S850000x64, .f32⟩
  | .hbm, ⟨86, _⟩ => ⟨S_, .f32⟩
  | .hbm, ⟨87, _⟩ => ⟨S50000x64, .f32⟩
  | .hbm, ⟨88, _⟩ => ⟨S850000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .local _ .vmem, ⟨0, _⟩ => ⟨S5000x128, .bf16⟩
  | .local _ .vmem, ⟨1, _⟩ => ⟨S5000x128, .bf16⟩
  | .local _ .vmem, ⟨2, _⟩ => ⟨S128x96, .bf16⟩
  | .local _ .vmem, ⟨3, _⟩ => ⟨S5000x96, .f32⟩
  | .local _ .vmem, ⟨4, _⟩ => ⟨S5000x96, .f32⟩
  | .local _ .vmem, ⟨5, _⟩ => ⟨S5000x96, .bf16⟩
  | .local _ .vmem, ⟨6, _⟩ => ⟨S5000x96, .bf16⟩
  | .local _ .vmem, ⟨7, _⟩ => ⟨S96x64, .bf16⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x64_S5000x64_1_0_0_1_n_n_wf : DotDims.WF S5000x96 S96x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .bf16 = 32 ∨ (Rect.block (s := S128x96) S128x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .bf16 = 32 ∨ (Rect.block (s := S50000x96) S5000x96.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x64.size a ≤ S96x64.size a
  hwx1_1 : ∀ i : grid1.Coords, EltTy.bits .bf16 = 32 ∨ (Rect.block (s := S96x64) S96x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S96x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x64_S50000x64_1_0_0_1_n_n_wf : DotDims.WF S50000x96 S96x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The kernel's run with its result named: every weakly fair execution of @main terminates, nothing faulting, with the
  result buffer at what the last boundary's contents hold there (the fold of the host stretches and the two
  pipelines' write-backs from the launch memory) and the arguments as launched. The segments, the thread states
  between them and the launch are the frame's; only the last reading differs: it reads the result buffer too.
-/
import proofs.«111037_j69853348102347_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v69) = W10 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v69 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Run

end
-- ==== Proof.Spec.lean ====
/-
  The two-layer graph convolution as pure functions of arrays.

  From the edge list e (2 × 800000 node numbers) the two rows with the 50000 self loops appended are the edges' sources
  and targets (850000 each). The degree of a node is the number of edges that end at it, dinv is its inverse square
  root where the degree is positive and 0 elsewhere, and the weight of an edge is dinv at its source times dinv at its
  target. A layer takes a node table h: every edge carries its source's row of h scaled by the edge's weight, the
  rows arriving at a node are added up, the bias row is added and the negative entries are cut at 0. A node number
  below 0 is read from the end of the table (the wrap-around that indexing applies), which `wrap` spells.
  Everything is generic in the float values; the dimension records are those of the printed program.
-/
import proofs.«111037_j69853348102347_1_alg».proof.Proof.Gen.KernelIdeal

noncomputable section

namespace Cert.KernelIdeal.Spec

open Cert.KernelIdeal Cert.KernelIdeal.Gen Idealize.ShloMosaic

variable {F : FTy → Type} [FloatOps F]

/-- Row 0 of the edge list followed by the self loops 0 … 49999: the edges' sources. -/
def src (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Row 1 of the edge list followed by the self loops: the edges' targets. -/
def dst (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A list of 850000 entries stood as a column. -/
def col {η : EltTy} (s : (⟨S850000, η⟩ : BufTy).Contents (Elt F)) : (⟨S850000x1, η⟩ : BufTy).Contents (Elt F) :=
  broadcastInDim S850000x1 ![0] bcast_S850000_S850000x1_0 s

/-- The zero table over the nodes. -/
def zeroNodes : (⟨S50000, .f32⟩ : BufTy).Contents (Elt F) :=
  broadcastInDim S50000 ![] bcast_S_S50000 (constant S_ .f32 0x00000000#32)

/-- The number of edges ending at each node: a 1 per edge, added up at the edge's target. -/
def deg (e : (⟨S2x800000, .i32⟩ : BufTy).Contents (Elt F)) : (⟨S50000, .f32⟩ : BufTy).Contents (Elt F) :=
  Host.scatterAdd scatter_S50000_S850000x1_S850000_n_0_0_1 zeroNodes (col (dst e))
    (broadcastInDim S850000 ![] bcast_S_S850000 (constant S_ .f32 0x3F800000#32))

/-- Where the degree is positive. -/
def degPos (e : (⟨S2x800000, .i32⟩ : BufTy).Contents (Elt F)) : (⟨S50000, .i1⟩ : BufTy).Contents (Elt F) :=
  cmpf .ogt (deg e) zeroNodes

/-- The inverse square root of the degree. -/
def degRsqrt (e : (⟨S2x800000, .i32⟩ : BufTy).Contents (Elt F)) : (⟨S50000, .f32⟩ : BufTy).Contents (Elt F) :=
  Host.rsqrt (deg e)

/-- The choice between a table and a constant, entry by entry. -/
def pick (g : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select g r (broadcastInDim S50000 ![] bcast_S_S50000 (id z))

/-- dinv: the inverse square root of the degree where the degree is positive, 0 elsewhere. -/
def dinv (e : (⟨S2x800000, .i32⟩ : BufTy).Contents (Elt F)) : (⟨S50000, .f32⟩ : BufTy).Contents (Elt F) :=
  pick (degPos e) (degRsqrt e) (constant S_ .f32 0x00000000#32)

/-- Node numbers as gather indices: a number below 0 counts from the end of the table; stood as a column. -/
def wrap (s : (⟨S850000, .i32⟩ : BufTy).Contents (Elt F)) : (⟨S850000x1, .i32⟩ : BufTy).Contents (Elt F) :=
  col (select (cmpi .slt s (broadcastInDim S850000 ![] bcast_S_S850000 (constantI S_ 32 0#32)))
    (addi s (broadcastInDim S850000 ![] bcast_S_S850000 (constantI S_ 32 50000#32))) s)

/-- An edge's weight from a node table d: d at its source times d at its target. -/
def weightOf (d : (⟨S50000, .f32⟩ : BufTy).Contents (Elt F)) (s t : (⟨S850000, .i32⟩ : BufTy).Contents (Elt F)) :
    (⟨S850000, .f32⟩ : BufTy).Contents (Elt F) :=
  mulf (Host.gather gather_S50000_S850000x1_S850000_n_0_n_n_0_1_1 d (wrap s))
    (Host.gather gather_S50000_S850000x1_S850000_n_0_n_n_0_1_1 d (wrap t))

/-- The edges' weights. -/
def weight (e : (⟨S2x800000, .i32⟩ : BufTy).Contents (Elt F)) : (⟨S850000, .f32⟩ : BufTy).Contents (Elt F) :=
  weightOf (dinv e) (src e) (dst e)

/-- Layer 1 before the cut at 0: the weighted rows of h added up at the edges' targets, plus the bias row. -/
def aggregate96 (h : (⟨S50000x96, .f32⟩ : BufTy).Contents (Elt F)) (s t : (⟨S850000, .i32⟩ : BufTy).Contents (Elt F))
    (n : (⟨S850000, .f32⟩ : BufTy).Contents (Elt F)) (b : (⟨S96, .f32⟩ : BufTy).Contents (Elt F)) :
    (⟨S50000x96, .f32⟩ : BufTy).Contents (Elt F) :=
  addf
    (Host.scatterAdd scatter_S50000x96_S850000x1_S850000x96_1_0_0_1
      (broadcastInDim S50000x96 ![] bcast_S_S50000x96 (constant S_ .f32 0x00000000#32)) (col t)
      (mulf (Host.gather gather_S50000x96_S850000x1_S850000x96_1_0_n_n_0_1_196 h (wrap s))
        (broadcastInDim S850000x96 ![0, 1] bcast_S850000x1_S850000x96_0_1 (col n))))
    (broadcastInDim S50000x96 ![0, 1] bcast_S1x96_S50000x96_0_1 (broadcastInDim S1x96 ![1] bcast_S96_S1x96_1 b))

/-- The cut at 0 of a 50000 × 96 table. -/
def relu96 (z : (⟨S50000x96, .f32⟩ : BufTy).Contents (Elt F)) : (⟨S50000x96, .f32⟩ : BufTy).Contents (Elt F) :=
  maximumf z (broadcastInDim S50000x96 ![] bcast_S_S50000x96 (constant S_ .f32 0x00000000#32))

/-- Layer 2 before the cut at 0. -/
def aggregate64 (h : (⟨S50000x64, .f32⟩ : BufTy).Contents (Elt F)) (s t : (⟨S850000, .i32⟩ : BufTy).Contents (Elt F))
    (n : (⟨S850000, .f32⟩ : BufTy).Contents (Elt F)) (b : (⟨S64, .f32⟩ : BufTy).Contents (Elt F)) :
    (⟨S50000x64, .f32⟩ : BufTy).Contents (Elt F) :=
  addf
    (Host.scatterAdd scatter_S50000x64_S850000x1_S850000x64_1_0_0_1
      (broadcastInDim S50000x64 ![] bcast_S_S50000x64 (constant S_ .f32 0x00000000#32)) (col t)
      (mulf (Host.gather gather_S50000x64_S850000x1_S850000x64_1_0_n_n_0_1_164 h (wrap s))
        (broadcastInDim S850000x64 ![0, 1] bcast_S850000x1_S850000x64_0_1 (col n))))
    (broadcastInDim S50000x64 ![0, 1] bcast_S1x64_S50000x64_0_1 (broadcastInDim S1x64 ![1] bcast_S64_S1x64_1 b))

/-- The cut at 0 of a 50000 × 64 table. -/
def relu64 (z : (⟨S50000x64, .f32⟩ : BufTy).Contents (Elt F)) : (⟨S50000x64, .f32⟩ : BufTy).Contents (Elt F) :=
  maximumf z (broadcastInDim S50000x64 ![] bcast_S_S50000x64 (constant S_ .f32 0x00000000#32))

/-- The whole network from its two node tables' linear maps `lin1`, `lin2` (a matrix product each, whichever
    way it is computed): layer 2 of layer 1. -/
def network (lin1 : (⟨S50000x96, .f32⟩ : BufTy).Contents (Elt F))
    (lin2 : (⟨S50000x96, .f32⟩ : BufTy).Contents (Elt F) → (⟨S50000x64, .f32⟩ : BufTy).Contents (Elt F))
    (e : (⟨S2x800000, .i32⟩ : BufTy).Contents (Elt F)) (b1 : (⟨S96, .f32⟩ : BufTy).Contents (Elt F))
    (b2 : (⟨S64, .f32⟩ : BufTy).Contents (Elt F)) : (⟨S50000x64, .f32⟩ : BufTy).Contents (Elt F) :=
  relu64 (aggregate64 (lin2 (relu96 (aggregate96 lin1 (src e) (dst e) (weight e) b1))) (src e) (dst e) (weight e) b2)

end Cert.KernelIdeal.Spec

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.HostPre.lean ====
/-
  The host operations before the first matrix product, read back: from the contents V they start from, the edges'
  sources and targets, the edges' weights, and the three operands narrowed to bf16; the biases are not touched.
-/
import proofs.«111037_j69853348102347_1_alg».proof.Proof.Gen.KernelIdeal.Launch
import proofs.«111037_j69853348102347_1_alg».proof.Proof.Spec
import proofs.«111037_j69853348102347_1_alg».proof.Proof.LibSingleAssignment
import Idealize.ShloMosaic.Lib.StableHlo.Run

noncomputable section

namespace Cert.KernelIdeal.Host

open Cert.KernelIdeal Cert.KernelIdeal.Gen Cert.KernelIdeal.Spec Idealize.ShloMosaic Idealize.ShloMosaic.TcCoe Idealize.ShloMosaic.StableHlo
open Cert.Lib.SingleAssignment

variable {F : FTy → Type} [FloatOps F]

/-- The buffers the first stretch writes, in order. -/
def h0W : List (Ref sig .tc) := [main_v0, main_v1, main_v2, main_v3, main_v4, main_v5, main_v6, main_cst, main_v7, main_cst_0, main_v8, main_v9, main_v10, main_cst_1, main_v11, main_v12, main_v13, main_cst_2]
theorem h0_writes : Writes (hostOps0 (F := F)) h0W := by
  repeat' first | exact List.Forall₂.nil | refine List.Forall₂.cons ?_ ?_
  all_goals rfl
/-- A buffer the first stretch does not write keeps its contents. -/
theorem h0_pass {r : Ref sig .tc} (hr : r ∉ h0W) (V : Valuation τ sig (Elt F)) :
    after hostOps0 V (Proc.devRef .tc r) = V (Proc.devRef .tc r) := after_of_not_mem h0_writes hr V

set_option maxHeartbeats 4000000 in
/-- The sources. -/
theorem h0_v3 (V : Valuation τ sig (Elt F)) :
    after hostOps0 V (Proc.devRef .tc main_v3) = src (V (Proc.devRef .tc main_arg1)) := by
  after_results
  all_goals rfl

set_option maxHeartbeats 4000000 in
/-- The targets. -/
theorem h0_v6 (V : Valuation τ sig (Elt F)) :
    after hostOps0 V (Proc.devRef .tc main_v6) = dst (V (Proc.devRef .tc main_arg1)) := by
  after_results
  all_goals rfl

set_option maxHeartbeats 4000000 in
/-- Where the degree is positive. -/
theorem h0_v12 (V : Valuation τ sig (Elt F)) :
    after hostOps0 V (Proc.devRef .tc main_v12) = degPos (V (Proc.devRef .tc main_arg1)) := by
  after_results
  all_goals rfl

set_option maxHeartbeats 4000000 in
/-- The inverse square root of the degree. -/
theorem h0_v13 (V : Valuation τ sig (Elt F)) :
    after hostOps0 V (Proc.devRef .tc main_v13) = degRsqrt (V (Proc.devRef .tc main_arg1)) := by
  after_results
  all_goals rfl

set_option maxHeartbeats 4000000 in
/-- The constant 0 that stands where the degree is not positive. -/
theorem h0_cst2 (V : Valuation τ sig (Elt F)) :
    after hostOps0 V (Proc.devRef .tc main_cst_2) = constant S_ .f32 0x00000000#32 := by
  after_results
  all_goals rfl

/-- The buffers the entrywise choice writes, in order. -/
def h01W : List (Ref sig .tc) := [main_call0_v0, main_call0_v1, main_v14]
theorem h01_writes : Writes (hostOps0_1 (F := F)) h01W := by
  repeat' first | exact List.Forall₂.nil | refine List.Forall₂.cons ?_ ?_
  all_goals rfl
/-- A buffer the entrywise choice does not write keeps its contents. -/
theorem h01_pass {r : Ref sig .tc} (hr : r ∉ h01W) (V : Valuation τ sig (Elt F)) :
    after hostOps0_1 V (Proc.devRef .tc r) = V (Proc.devRef .tc r) := after_of_not_mem h01_writes hr V

set_option maxHeartbeats 4000000 in
/-- dinv from its three ingredients. -/
theorem h01_v14 (V : Valuation τ sig (Elt F)) :
    after hostOps0_1 V (Proc.devRef .tc main_v14) = pick (V (Proc.devRef .tc main_v12)) (V (Proc.devRef .tc main_v13)) (V (Proc.devRef .tc main_cst_2)) := by
  after_results
  all_goals rfl

/-- The buffers the third stretch writes, in order. -/
def h02W : List (Ref sig .tc) := [main_c, main_v15, main_v16, main_c_3, main_v17, main_v18, main_v19, main_v20, main_v21, main_c_4, main_v22, main_v23, main_c_5, main_v24, main_v25, main_v26, main_v27, main_v28, main_v29, main_v30, main_v31, main_v32]
theorem h02_writes : Writes (hostOps0_2 (F := F)) h02W := by
  repeat' first | exact List.Forall₂.nil | refine List.Forall₂.cons ?_ ?_
  all_goals rfl
/-- A buffer the third stretch does not write keeps its contents. -/
theorem h02_pass {r : Ref sig .tc} (hr : r ∉ h02W) (V : Valuation τ sig (Elt F)) :
    after hostOps0_2 V (Proc.devRef .tc r) = V (Proc.devRef .tc r) := after_of_not_mem h02_writes hr V

set_option maxHeartbeats 4000000 in
/-- The edges' weights from dinv, the sources and the targets. -/
theorem h02_v29 (V : Valuation τ sig (Elt F)) :
    after hostOps0_2 V (Proc.devRef .tc main_v29) = weightOf (V (Proc.devRef .tc main_v14)) (V (Proc.devRef .tc main_v3)) (V (Proc.devRef .tc main_v6)) := by
  after_results_simp
  all_goals rfl

set_option maxHeartbeats 4000000 in
/-- The node features narrowed. -/
theorem h02_v30 (V : Valuation τ sig (Elt F)) :
    after hostOps0_2 V (Proc.devRef .tc main_v30) = truncf .bf16 (V (Proc.devRef .tc main_arg0)) bitsLt_bf16_f32 := by
  after_results_simp
  all_goals rfl

set_option maxHeartbeats 4000000 in
/-- The first weight matrix narrowed. -/
theorem h02_v31 (V : Valuation τ sig (Elt F)) :
    after hostOps0_2 V (Proc.devRef .tc main_v31) = truncf .bf16 (V (Proc.devRef .tc main_arg2)) bitsLt_bf16_f32 := by
  after_results_simp
  all_goals rfl

set_option maxHeartbeats 4000000 in
/-- The second weight matrix narrowed. -/
theorem h02_v32 (V : Valuation τ sig (Elt F)) :
    after hostOps0_2 V (Proc.devRef .tc main_v32) = truncf .bf16 (V (Proc.devRef .tc main_arg4)) bitsLt_bf16_f32 := by
  after_results_simp
  all_goals rfl

/-- The three stretches in a row. -/
abbrev pre (V : Valuation τ sig (Elt F)) : Valuation τ sig (Elt F) := after hostOps0_2 (after hostOps0_1 (after hostOps0 V))

/-- A buffer none of the three stretches writes keeps its contents. -/
theorem pre_pass {r : Ref sig .tc} (h0 : r ∉ h0W) (h1 : r ∉ h01W) (h2 : r ∉ h02W) (V : Valuation τ sig (Elt F)) :
    pre V (Proc.devRef .tc r) = V (Proc.devRef .tc r) :=
  (h02_pass h2 _).trans ((h01_pass h1 _).trans (h0_pass h0 V))

theorem pre_v3 (V : Valuation τ sig (Elt F)) : pre V (Proc.devRef .tc main_v3) = src (V (Proc.devRef .tc main_arg1)) :=
  (h02_pass (by decide) _).trans ((h01_pass (by decide) _).trans (h0_v3 V))

theorem pre_v6 (V : Valuation τ sig (Elt F)) : pre V (Proc.devRef .tc main_v6) = dst (V (Proc.devRef .tc main_arg1)) :=
  (h02_pass (by decide) _).trans ((h01_pass (by decide) _).trans (h0_v6 V))

/-- The weights are those of the edge list: dinv is chosen from the degree's sign and inverse square root. -/
theorem pre_v29 (V : Valuation τ sig (Elt F)) : pre V (Proc.devRef .tc main_v29) = weight (V (Proc.devRef .tc main_arg1)) := by
  show after hostOps0_2 (after hostOps0_1 (after hostOps0 V)) (Proc.devRef .tc main_v29) = _
  rw [h02_v29, h01_v14, h01_pass (r := main_v3) (by decide), h01_pass (r := main_v6) (by decide), h0_v12, h0_v13, h0_cst2,
    h0_v3, h0_v6]
  rfl

theorem pre_v30 (V : Valuation τ sig (Elt F)) : pre V (Proc.devRef .tc main_v30) = truncf .bf16 (V (Proc.devRef .tc main_arg0)) bitsLt_bf16_f32 := by
  show after hostOps0_2 (after hostOps0_1 (after hostOps0 V)) (Proc.devRef .tc main_v30) = _
  rw [h02_v30, h01_pass (r := main_arg0) (by decide), h0_pass (r := main_arg0) (by decide)]

theorem pre_v31 (V : Valuation τ sig (Elt F)) : pre V (Proc.devRef .tc main_v31) = truncf .bf16 (V (Proc.devRef .tc main_arg2)) bitsLt_bf16_f32 := by
  show after hostOps0_2 (after hostOps0_1 (after hostOps0 V)) (Proc.devRef .tc main_v31) = _
  rw [h02_v31, h01_pass (r := main_arg2) (by decide), h0_pass (r := main_arg2) (by decide)]

theorem pre_v32 (V : Valuation τ sig (Elt F)) : pre V (Proc.devRef .tc main_v32) = truncf .bf16 (V (Proc.devRef .tc main_arg4)) bitsLt_bf16_f32 := by
  show after hostOps0_2 (after hostOps0_1 (after hostOps0 V)) (Proc.devRef .tc main_v32) = _
  rw [h02_v32, h01_pass (r := main_arg4) (by decide), h0_pass (r := main_arg4) (by decide)]

end Cert.KernelIdeal.Host

end
-- ==== Proof.HostMid.lean ====
/-
  The host operations between the two matrix products, read back: layer 1's aggregation of the first product over
  the edges, the bias, the cut at 0, and the narrowing to bf16 that feeds the second product.
-/
import proofs.«111037_j69853348102347_1_alg».proof.Proof.Gen.KernelIdeal.Launch
import proofs.«111037_j69853348102347_1_alg».proof.Proof.Spec
import proofs.«111037_j69853348102347_1_alg».proof.Proof.LibSingleAssignment
import Idealize.ShloMosaic.Lib.StableHlo.Run

noncomputable section

namespace Cert.KernelIdeal.Host

open Cert.KernelIdeal Cert.KernelIdeal.Gen Cert.KernelIdeal.Spec Idealize.ShloMosaic Idealize.ShloMosaic.TcCoe Idealize.ShloMosaic.StableHlo
open Cert.Lib.SingleAssignment

variable {F : FTy → Type} [FloatOps F]

/-- The buffers the aggregation writes, in order. -/
def h1W : List (Ref sig .tc) := [main_c_6, main_v34, main_v35, main_c_7, main_v36, main_v37, main_v38, main_v39, main_v40, main_v41, main_v42, main_v43, main_cst_8, main_v44, main_v45, main_v46, main_v47, main_v48, main_v49]
theorem h1_writes : Writes (hostOps1 (F := F)) h1W := by
  repeat' first | exact List.Forall₂.nil | refine List.Forall₂.cons ?_ ?_
  all_goals rfl
/-- A buffer the aggregation does not write keeps its contents. -/
theorem h1_pass {r : Ref sig .tc} (hr : r ∉ h1W) (V : Valuation τ sig (Elt F)) :
    after hostOps1 V (Proc.devRef .tc r) = V (Proc.devRef .tc r) := after_of_not_mem h1_writes hr V

set_option maxHeartbeats 4000000 in
/-- Layer 1 before the cut. -/
theorem h1_v49 (V : Valuation τ sig (Elt F)) :
    after hostOps1 V (Proc.devRef .tc main_v49) = aggregate96 (V (Proc.devRef .tc main_v33)) (V (Proc.devRef .tc main_v3)) (V (Proc.devRef .tc main_v6)) (V (Proc.devRef .tc main_v29)) (V (Proc.devRef .tc main_arg3)) := by
  after_results_simp
  all_goals rfl

/-- The buffers the cut at 0 writes, in order. -/
def h11W : List (Ref sig .tc) := [main_call1_cst, main_call1_v0, main_v50]
theorem h11_writes : Writes (hostOps1_1 (F := F)) h11W := by
  repeat' first | exact List.Forall₂.nil | refine List.Forall₂.cons ?_ ?_
  all_goals rfl
/-- A buffer the cut at 0 does not write keeps its contents. -/
theorem h11_pass {r : Ref sig .tc} (hr : r ∉ h11W) (V : Valuation τ sig (Elt F)) :
    after hostOps1_1 V (Proc.devRef .tc r) = V (Proc.devRef .tc r) := after_of_not_mem h11_writes hr V

set_option maxHeartbeats 4000000 in
/-- The cut at 0. -/
theorem h11_v50 (V : Valuation τ sig (Elt F)) :
    after hostOps1_1 V (Proc.devRef .tc main_v50) = relu96 (V (Proc.devRef .tc main_v49)) := by
  after_results
  all_goals rfl

/-- The buffers the narrowing writes, in order. -/
def h12W : List (Ref sig .tc) := [main_v51]
theorem h12_writes : Writes (hostOps1_2 (F := F)) h12W := by
  repeat' first | exact List.Forall₂.nil | refine List.Forall₂.cons ?_ ?_
  all_goals rfl
/-- A buffer the narrowing does not write keeps its contents. -/
theorem h12_pass {r : Ref sig .tc} (hr : r ∉ h12W) (V : Valuation τ sig (Elt F)) :
    after hostOps1_2 V (Proc.devRef .tc r) = V (Proc.devRef .tc r) := after_of_not_mem h12_writes hr V

set_option maxHeartbeats 4000000 in
/-- The narrowing. -/
theorem h12_v51 (V : Valuation τ sig (Elt F)) :
    after hostOps1_2 V (Proc.devRef .tc main_v51) = truncf .bf16 (V (Proc.devRef .tc main_v50)) bitsLt_bf16_f32 := by
  after_results_simp
  all_goals rfl

/-- The three stretches in a row. -/
abbrev mid (V : Valuation τ sig (Elt F)) : Valuation τ sig (Elt F) := after hostOps1_2 (after hostOps1_1 (after hostOps1 V))

/-- A buffer none of them writes keeps its contents. -/
theorem mid_pass {r : Ref sig .tc} (h0 : r ∉ h1W) (h1 : r ∉ h11W) (h2 : r ∉ h12W) (V : Valuation τ sig (Elt F)) :
    mid V (Proc.devRef .tc r) = V (Proc.devRef .tc r) :=
  (h12_pass h2 _).trans ((h11_pass h1 _).trans (h1_pass h0 V))

/-- Layer 1's output, narrowed, from the first product and the edges' data as the stretch finds them. -/
theorem mid_v51 (V : Valuation τ sig (Elt F)) : mid V (Proc.devRef .tc main_v51)
    = truncf .bf16 (relu96 (aggregate96 (V (Proc.devRef .tc main_v33)) (V (Proc.devRef .tc main_v3)) (V (Proc.devRef .tc main_v6)) (V (Proc.devRef .tc main_v29)) (V (Proc.devRef .tc main_arg3)))) bitsLt_bf16_f32 := by
  show after hostOps1_2 (after hostOps1_1 (after hostOps1 V)) (Proc.devRef .tc main_v51) = _
  rw [h12_v51, h11_v50, h1_v49]

end Cert.KernelIdeal.Host

end
-- ==== Proof.HostTail.lean ====
/-
  The host operations after the second matrix product, read back: layer 2's aggregation over the edges, the bias and
  the cut at 0 — the result.
-/
import proofs.«111037_j69853348102347_1_alg».proof.Proof.Gen.KernelIdeal.Launch
import proofs.«111037_j69853348102347_1_alg».proof.Proof.Spec
import proofs.«111037_j69853348102347_1_alg».proof.Proof.LibSingleAssignment
import Idealize.ShloMosaic.Lib.StableHlo.Run

noncomputable section

namespace Cert.KernelIdeal.Host

open Cert.KernelIdeal Cert.KernelIdeal.Gen Cert.KernelIdeal.Spec Idealize.ShloMosaic Idealize.ShloMosaic.TcCoe Idealize.ShloMosaic.StableHlo
open Cert.Lib.SingleAssignment

variable {F : FTy → Type} [FloatOps F]

/-- The buffers the aggregation writes, in order. -/
def h2W : List (Ref sig .tc) := [main_c_9, main_v53, main_v54, main_c_10, main_v55, main_v56, main_v57, main_v58, main_v59, main_v60, main_v61, main_v62, main_cst_11, main_v63, main_v64, main_v65, main_v66, main_v67, main_v68]
theorem h2_writes : Writes (hostOps2 (F := F)) h2W := by
  repeat' first | exact List.Forall₂.nil | refine List.Forall₂.cons ?_ ?_
  all_goals rfl
/-- A buffer the aggregation does not write keeps its contents. -/
theorem h2_pass {r : Ref sig .tc} (hr : r ∉ h2W) (V : Valuation τ sig (Elt F)) :
    after hostOps2 V (Proc.devRef .tc r) = V (Proc.devRef .tc r) := after_of_not_mem h2_writes hr V

set_option maxHeartbeats 4000000 in
/-- Layer 2 before the cut. -/
theorem h2_v68 (V : Valuation τ sig (Elt F)) :
    after hostOps2 V (Proc.devRef .tc main_v68) = aggregate64 (V (Proc.devRef .tc main_v52)) (V (Proc.devRef .tc main_v3)) (V (Proc.devRef .tc main_v6)) (V (Proc.devRef .tc main_v29)) (V (Proc.devRef .tc main_arg5)) := by
  after_results_simp
  all_goals rfl

/-- The buffers the cut at 0 writes, in order. -/
def h21W : List (Ref sig .tc) := [main_call2_cst, main_call2_v0, main_v69]
theorem h21_writes : Writes (hostOps2_1 (F := F)) h21W := by
  repeat' first | exact List.Forall₂.nil | refine List.Forall₂.cons ?_ ?_
  all_goals rfl
/-- A buffer the cut at 0 does not write keeps its contents. -/
theorem h21_pass {r : Ref sig .tc} (hr : r ∉ h21W) (V : Valuation τ sig (Elt F)) :
    after hostOps2_1 V (Proc.devRef .tc r) = V (Proc.devRef .tc r) := after_of_not_mem h21_writes hr V

set_option maxHeartbeats 4000000 in
/-- The cut at 0. -/
theorem h21_v69 (V : Valuation τ sig (Elt F)) :
    after hostOps2_1 V (Proc.devRef .tc main_v69) = relu64 (V (Proc.devRef .tc main_v68)) := by
  after_results
  all_goals rfl

/-- The two stretches in a row. -/
abbrev tail (V : Valuation τ sig (Elt F)) : Valuation τ sig (Elt F) := after hostOps2_1 (after hostOps2 V)

/-- The result from the second product and the edges' data as the stretch finds them. -/
theorem tail_v69 (V : Valuation τ sig (Elt F)) : tail V (Proc.devRef .tc main_v69)
    = relu64 (aggregate64 (V (Proc.devRef .tc main_v52)) (V (Proc.devRef .tc main_v3)) (V (Proc.devRef .tc main_v6)) (V (Proc.devRef .tc main_v29)) (V (Proc.devRef .tc main_arg5))) := by
  show after hostOps2_1 (after hostOps2 V) (Proc.devRef .tc main_v69) = _
  rw [h21_v69, h2_v68]

end Cert.KernelIdeal.Host

end
-- ==== Proof.LibDotAt.lean ====
/-
  The host's matrix product at the ideal values, read at one entry: for an m×k matrix times a k×n matrix (the left
  operand contracted along its columns, the right along its rows, no batch axis) the entry at row `a`, column `b` is
  the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The host's product of an m×k by a k×n matrix, read at entry (a, b). -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.LibMatmulAt.lean ====
/-
  A matrix product accumulated into the zero block, at the ideal values, read at one entry: for an m×k matrix times a
  k×n matrix (the left operand contracted along its columns, the right along its rows, no batch axis) the entry at
  row `a`, column `b` is the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The product of an m×k by a k×n matrix into the zero block, read at entry (a, b). -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.LibMatProdFn.lean ====
/-
  The product of an m×k matrix and a k×n matrix over the extended reals, entry (a, b) the sum over c of A (a, c) · B (c, b),
  and the two ways the programs spell it: the host's dot_general (contracting the left operand's columns with the right
  operand's rows, no batch axis) and the matrix unit's product accumulated into the zero block. No finiteness is
  involved: both spellings are this very sum. The operands' float formats are free (at the ideal values a change of
  format is the identity).
-/
import proofs.«111037_j69853348102347_1_alg».proof.Proof.LibDotAt
import proofs.«111037_j69853348102347_1_alg».proof.Proof.LibMatmulAt

noncomputable section

open scoped BigOperators

namespace Cert.Lib.MatProdFn

open Cert.Lib Idealize.ShloMosaic Idealize.ShloMosaic.ValueIdx

/-- The matrix product, entry by entry. -/
def matProd {m k n : ℕ} {φ₁ φ₂ : FTy} (A : FVec Ideal ⟨2, ![m, k]⟩ φ₁) (B : FVec Ideal ⟨2, ![k, n]⟩ φ₂) :
    FVec Ideal ⟨2, ![m, n]⟩ .f32 :=
  fun i => ∑ c : Fin k, A (ix2 (⟨(i 0).val, idx2_lt0 i⟩ : Fin m) c) * B (ix2 c (⟨(i 1).val, idx2_lt1 i⟩ : Fin n))

theorem matProd_apply {m k n : ℕ} {φ₁ φ₂ : FTy} (A : FVec Ideal ⟨2, ![m, k]⟩ φ₁) (B : FVec Ideal ⟨2, ![k, n]⟩ φ₂)
    (a : Fin m) (b : Fin n) : matProd A B (ix2 a b) = ∑ c : Fin k, A (ix2 a c) * B (ix2 c b) := rfl

/-- An entry of the product at any index of the result. -/
theorem matProd_at {m k n : ℕ} {φ₁ φ₂ : FTy} (A : FVec Ideal ⟨2, ![m, k]⟩ φ₁) (B : FVec Ideal ⟨2, ![k, n]⟩ φ₂)
    (i : (⟨2, ![m, n]⟩ : Shape).Idx) :
    matProd A B i = ∑ c : Fin k, A (ix2 (⟨(i 0).val, idx2_lt0 i⟩ : Fin m) c) * B (ix2 c (⟨(i 1).val, idx2_lt1 i⟩ : Fin n)) := rfl

/-- The host's dot_general of the two matrices is the matrix product. -/
theorem dotGeneral_eq_matProd {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    Host.dotGeneral (⟨[1], [0], [0], [1], [], [], w⟩ : DotDims _ _ _) prec A B = matProd A B := by
  funext i
  obtain ⟨a, b, rfl⟩ : ∃ (a : Fin m) (b : Fin n), i = ix2 a b := ⟨i 0, i 1, eq_ix2 i⟩
  exact dotGeneral_plain_apply w prec A B a b

/-- The matrix unit's product into the zero block, read at an entry, is the matrix product's entry. -/
theorem matmul_zero_eq_matProd {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims _ _ _) prec A B (constant (F := Ideal) _ .f32 0x00000000#32)
      = matProd A B := by
  funext i
  obtain ⟨a, b, rfl⟩ : ∃ (a : Fin m) (b : Fin n), i = ix2 a b := ⟨i 0, i 1, eq_ix2 i⟩
  exact matmul_plain_zero_apply w prec A B a b

end Cert.Lib.MatProdFn

end
-- ==== Proof.Region.lean ====
/-
  The two pipelined matrix products, each read off its pipeline's proof data: the grid walks the left operand and the
  result down their rows in ten blocks of 5000 rows, the right operand is one block that stays. At the ideal values the
  body's product into the zero block is the sum over the contracted coordinate, so what a point writes back is its
  block of the product of the WHOLE arrays, the ten blocks cover the result, and the result array ends as that product —
  stated at any contents V the region is entered from.
-/
import proofs.«111037_j69853348102347_1_alg».proof.Proof.Gen.KernelIdeal.Frame
import proofs.«111037_j69853348102347_1_alg».proof.Proof.LibMatProdFn
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.Lib Cert.Lib.MatProdFn

variable (V : (c : Dev nD) → (b : Ref sig .tc) → Buf (Elt Ideal) ((c : Thread nD τ).loc b))

theorem hz : (![0, 0] : Fin 2 → Nat) = fun _ => 0 := funext fun a => by fin_cases a <;> rfl

/-! ## Pipeline 0: the node features times the first weight matrix -/

/-- What the body stores is the product of the two loaded blocks. -/
theorem pay0_eq (x0 : FVec Ideal S5000x128 .bf16) (x1 : FVec Ideal S128x96 .bf16) :
    k0_pay1 (F := Ideal) x0 x1 = matProd (φ₁ := .bf16) (φ₂ := .bf16) x0 x1 := by
  show matmul dot_S5000x128_S128x96_S5000x96_1_0_0_1_n_n none (shapeCast S5000x128 x0 _) (shapeCast S128x96 x1 _) (constant S5000x96 .f32 0x00000000#32) = _
  rw [shapeCast_self, shapeCast_self]
  exact matmul_zero_eq_matProd _ none x0 x1

/-- The printed index maps over the grid: the left operand's and the result's blocks move down the rows together, one
    block of 5000 rows per point; the right operand is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … of its array. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .bf16) x = (V c main_v30 : S50000x128.Idx → Elt Ideal .bf16) k := by
  obtain ⟨e0, e1, -, -, -, -⟩ := idx_facts0 t
  unfold iblk0
  rw [View.read_apply]
  show V c main_v30 _ = V c main_v30 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's one block is its array. -/
theorem iblk0_1_apply (c : Dev nD) (t : Fin cfg0.N) (x : S128x96.Idx) :
    (iblk0 V c 1 t : Vec Ideal S128x96 .bf16) x = (V c main_v31 : S128x96.Idx → Elt Ideal .bf16) x := by
  obtain ⟨-, -, e2, e3, -, -⟩ := idx_facts0 t
  unfold iblk0
  rw [View.read_apply]
  show V c main_v31 _ = V c main_v31 _
  congr 1
  funext a
  apply Fin.ext
  match a with
  | ⟨0, _⟩ => show win0_1.index t 0 * 128 + 1 * (x 0).val = (x 0).val; rw [e2]; omega
  | ⟨1, _⟩ => show win0_1.index t 1 * 96 + 1 * (x 1).val = (x 1).val; rw [e3]; omega

/-- The product of the two arrays as the region finds them. -/
abbrev prod0 (c : Dev nD) : FVec Ideal S50000x96 .f32 :=
  matProd (φ₁ := .bf16) (φ₂ := .bf16) (V c main_v30) (V c main_v31)

/-- What point t writes back is block t of the product: an entry of the block takes its row of the left operand's
    block, which is the row of the array 5000·t further down, and its column of the right operand. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x96) hz]
  obtain ⟨-, -, -, -, e4, e5⟩ := idx_facts0 t
  funext j
  have hj0 : (j 0).val < 5000 := (j 0).isLt
  have hj1 : (j 1).val < 96 := (j 1).isLt
  have ht : t.val < 10 := lt_of_lt_of_eq t.isLt N_0
  have hemb : ((cfg0.win 2).blk t).view.emb j
      = (ix2 (⟨5000 * t.val + (j 0).val, by omega⟩ : Fin 50000) (⟨(j 1).val, hj1⟩ : Fin 96) : S50000x96.Idx) := by
    funext a
    apply Fin.ext
    match a with
    | ⟨0, _⟩ => show win0_2.index t 0 * 5000 + 1 * (j 0).val = 5000 * t.val + (j 0).val; rw [e4]; omega
    | ⟨1, _⟩ => show win0_2.index t 1 * 96 + 1 * (j 1).val = (j 1).val; rw [e5]; omega
  show k0_pay1 (F := Ideal) (iblk0 V c 0 t) (iblk0 V c 1 t) j = prod0 V c (((cfg0.win 2).blk t).view.emb j)
  rw [hemb]
  refine (congrFun (pay0_eq (iblk0 V c 0 t) (iblk0 V c 1 t)) j).trans ?_
  refine (matProd_at (φ₁ := .bf16) (φ₂ := .bf16) (iblk0 V c 0 t) (iblk0 V c 1 t) j).trans ?_
  refine Eq.trans ?_ (matProd_apply (φ₁ := .bf16) (φ₂ := .bf16) (V c main_v30) (V c main_v31) _ _).symm
  refine Finset.sum_congr rfl fun k _ => ?_
  rw [iblk0_0_apply V c t (ix2 ⟨(j 0).val, hj0⟩ k) (ix2 (⟨5000 * t.val + (j 0).val, by omega⟩ : Fin 50000) k) rfl rfl,
    iblk0_1_apply V c t (ix2 k ⟨(j 1).val, hj1⟩)]

/-- An index of the result array is in point t's block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v33).slice (win0_2.rect t)).set ↔ _
  rw [View.set_slice_whole, Rect.mem_set_unit]
  exact Iff.rfl

/-- Every entry of the result array is in some point's block: row r is in block r / 5000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  let t : Fin cfg0.N := ⟨(i 0).val / 5000, by rw [hN]; omega⟩
  obtain ⟨-, -, -, -, e4, e5⟩ := idx_facts0 t
  have htv : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 96 ≤ (i 1).val ∧ (i 1).val < win0_2.index t (1 : Fin 2) * 96 + 96; rw [e5]; omega

/-- The result array after the pipeline is the product of the two arrays the region found. -/
theorem arr0 (c : Dev nD) : (dat0 V c).arrAt 2 cfg0.N = prod0 V c :=
  (dat0 V c).arrAt_eq_of_cover 2 (prod0 V c) (fun t _ => flushed0 V c t) (cover0)

/-! ## Pipeline 1: layer 1's output times the second weight matrix -/

/-- What the body stores is the product of the two loaded blocks. -/
theorem pay1_eq (x0 : FVec Ideal S5000x96 .bf16) (x1 : FVec Ideal S96x64 .bf16) :
    k1_pay1 (F := Ideal) x0 x1 = matProd (φ₁ := .bf16) (φ₂ := .bf16) x0 x1 := by
  show matmul dot_S5000x96_S96x64_S5000x64_1_0_0_1_n_n none (shapeCast S5000x96 x0 _) (shapeCast S96x64 x1 _) (constant S5000x64 .f32 0x00000000#32) = _
  rw [shapeCast_self, shapeCast_self]
  exact matmul_zero_eq_matProd _ none x0 x1

/-- The printed index maps over the grid: the left operand's and the result's blocks move down the rows together, one
    block of 5000 rows per point; the right operand is one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … of its array. -/
theorem iblk1_0_apply (c : Dev nD) (t : Fin cfg1.N) (x : S5000x96.Idx) (k : S50000x96.Idx)
    (hk0 : (k 0).val = 5000 * t.val + (x 0).val) (hk1 : (k 1).val = (x 1).val) :
    (iblk1 V c 0 t : Vec Ideal S5000x96 .bf16) x = (V c main_v51 : S50000x96.Idx → Elt Ideal .bf16) k := by
  obtain ⟨e0, e1, -, -, -, -⟩ := idx_facts1 t
  unfold iblk1
  rw [View.read_apply]
  show V c main_v51 _ = V c main_v51 _
  congr 1
  funext a
  apply Fin.ext
  match a with
  | ⟨0, _⟩ => show win1_0.index t 0 * 5000 + 1 * (x 0).val = (k 0).val; rw [e0, hk0]; omega
  | ⟨1, _⟩ => show win1_0.index t 1 * 96 + 1 * (x 1).val = (k 1).val; rw [e1, hk1]; omega

/-- The right operand's one block is its array. -/
theorem iblk1_1_apply (c : Dev nD) (t : Fin cfg1.N) (x : S96x64.Idx) :
    (iblk1 V c 1 t : Vec Ideal S96x64 .bf16) x = (V c main_v32 : S96x64.Idx → Elt Ideal .bf16) x := by
  obtain ⟨-, -, e2, e3, -, -⟩ := idx_facts1 t
  unfold iblk1
  rw [View.read_apply]
  show V c main_v32 _ = V c main_v32 _
  congr 1
  funext a
  apply Fin.ext
  match a with
  | ⟨0, _⟩ => show win1_1.index t 0 * 96 + 1 * (x 0).val = (x 0).val; rw [e2]; omega
  | ⟨1, _⟩ => show win1_1.index t 1 * 64 + 1 * (x 1).val = (x 1).val; rw [e3]; omega

/-- The product of the two arrays as the region finds them. -/
abbrev prod1 (c : Dev nD) : FVec Ideal S50000x64 .f32 :=
  matProd (φ₁ := .bf16) (φ₂ := .bf16) (V c main_v51) (V c main_v32)

/-- What point t writes back is block t of the product: an entry of the block takes its row of the left operand's
    block, which is the row of the array 5000·t further down, and its column of the right operand. -/
theorem flushed1 (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x64) hz]
  obtain ⟨-, -, -, -, e4, e5⟩ := idx_facts1 t
  funext j
  have hj0 : (j 0).val < 5000 := (j 0).isLt
  have hj1 : (j 1).val < 64 := (j 1).isLt
  have ht : t.val < 10 := lt_of_lt_of_eq t.isLt N_1
  have hemb : ((cfg1.win 2).blk t).view.emb j
      = (ix2 (⟨5000 * t.val + (j 0).val, by omega⟩ : Fin 50000) (⟨(j 1).val, hj1⟩ : Fin 64) : S50000x64.Idx) := by
    funext a
    apply Fin.ext
    match a with
    | ⟨0, _⟩ => show win1_2.index t 0 * 5000 + 1 * (j 0).val = 5000 * t.val + (j 0).val; rw [e4]; omega
    | ⟨1, _⟩ => show win1_2.index t 1 * 64 + 1 * (j 1).val = (j 1).val; rw [e5]; omega
  show k1_pay1 (F := Ideal) (iblk1 V c 0 t) (iblk1 V c 1 t) j = prod1 V c (((cfg1.win 2).blk t).view.emb j)
  rw [hemb]
  refine (congrFun (pay1_eq (iblk1 V c 0 t) (iblk1 V c 1 t)) j).trans ?_
  refine (matProd_at (φ₁ := .bf16) (φ₂ := .bf16) (iblk1 V c 0 t) (iblk1 V c 1 t) j).trans ?_
  refine Eq.trans ?_ (matProd_apply (φ₁ := .bf16) (φ₂ := .bf16) (V c main_v51) (V c main_v32) _ _).symm
  refine Finset.sum_congr rfl fun k _ => ?_
  rw [iblk1_0_apply V c t (ix2 ⟨(j 0).val, hj0⟩ k) (ix2 (⟨5000 * t.val + (j 0).val, by omega⟩ : Fin 50000) k) rfl rfl,
    iblk1_1_apply V c t (ix2 k ⟨(j 1).val, hj1⟩)]

/-- An index of the result array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Every entry of the result array is in some point's block: row r is in block r / 5000. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, e4, e5⟩ := idx_facts1 t
  have htv : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 64 ≤ (i 1).val ∧ (i 1).val < win1_2.index t (1 : Fin 2) * 64 + 64; rw [e5]; omega

/-- The result array after the pipeline is the product of the two arrays the region found. -/
theorem arr1 (c : Dev nD) : (dat1 V c).arrAt 2 cfg1.N = prod1 V c :=
  (dat1 V c).arrAt_eq_of_cover 2 (prod1 V c) (fun t _ => flushed1 V c t) (cover1)

end Cert.KernelIdeal.Region

end
-- ==== Proof.KValue.lean ====
/-
  The kernel's result as a function of its arguments, at the ideal values: walking the fold of the host stretches and
  the two pipelines back from the result buffer. The last stretch makes the result layer 2 of the second pipeline's
  array, which is the product of layer 1's output with the second weight matrix; layer 1 is built by the middle
  stretch from the first pipeline's array, the product of the node features with the first weight matrix; the edges'
  sources, targets and weights come from the first stretch and pass every later segment untouched. The narrowings to
  bf16 on the way into the products are the identity at the ideal values. So the result is the network over the two
  plain matrix products.
-/
import proofs.«111037_j69853348102347_1_alg».proof.Proof.Gen.KernelIdeal.Frame
import proofs.«111037_j69853348102347_1_alg».proof.Proof.HostPre
import proofs.«111037_j69853348102347_1_alg».proof.Proof.HostMid
import proofs.«111037_j69853348102347_1_alg».proof.Proof.HostTail
import proofs.«111037_j69853348102347_1_alg».proof.Proof.Region
import proofs.«111037_j69853348102347_1_alg».proof.Proof.Spec
import proofs.«111037_j69853348102347_1_alg».proof.Proof.LibMatProdFn

noncomputable section

open Idealize.ShloMosaic Idealize.ShloMosaic.TcCoe Idealize.SL.Sem Idealize.ShloMosaic.StableHlo

namespace Cert.KernelIdeal.Result

open Cert.KernelIdeal Cert.KernelIdeal.Gen Cert.KernelIdeal.Spec Cert.KernelIdeal.Host Cert.KernelIdeal.Region Cert.Lib Cert.Lib.MatProdFn

/-- The narrowing of a table to bf16, at the ideal values. -/
abbrev narrow {s : Shape} (x : FVec Ideal s .f32) : FVec Ideal s .bf16 :=
  truncf (F := Ideal) (s := s) (φ := .f32) .bf16 x bitsLt_bf16_f32

/-- Narrowing both operands does not change a product at the ideal values: the narrowing is the identity there. -/
theorem prod_narrow {a k b : ℕ} (A : FVec Ideal ⟨2, ![a, k]⟩ .f32) (B : FVec Ideal ⟨2, ![k, b]⟩ .f32) :
    matProd (φ₁ := .bf16) (φ₂ := .bf16) (narrow A) (narrow B) = matProd (φ₁ := .f32) (φ₂ := .f32) A B := rfl

variable (m : (ℓ : Loc nD τ sig) → Buf (Elt Ideal) ℓ) (ρ : Dev nD → PrngReg)

/-- The arguments as launched: node features, edge list, the two weight matrices and the two biases. -/
abbrev argX (c : Dev nD) : FVec Ideal S50000x128 .f32 := m ((c : Thread nD τ).loc main_arg0)
abbrev argE (c : Dev nD) : (⟨S2x800000, .i32⟩ : BufTy).Contents (Elt Ideal) := m ((c : Thread nD τ).loc main_arg1)
abbrev argW1 (c : Dev nD) : FVec Ideal S128x96 .f32 := m ((c : Thread nD τ).loc main_arg2)
abbrev argB1 (c : Dev nD) : (⟨S96, .f32⟩ : BufTy).Contents (Elt Ideal) := m ((c : Thread nD τ).loc main_arg3)
abbrev argW2 (c : Dev nD) : FVec Ideal S96x64 .f32 := m ((c : Thread nD τ).loc main_arg4)
abbrev argB2 (c : Dev nD) : (⟨S64, .f32⟩ : BufTy).Contents (Elt Ideal) := m ((c : Thread nD τ).loc main_arg5)

/-! ## At the first pipeline's entry -/

theorem at3_v3 (c : Dev nD) : W3 m ρ c (Proc.devRef .tc main_v3) = src (argE m c) := pre_v3 (W0 m ρ c)
theorem at3_v6 (c : Dev nD) : W3 m ρ c (Proc.devRef .tc main_v6) = dst (argE m c) := pre_v6 (W0 m ρ c)
theorem at3_v29 (c : Dev nD) : W3 m ρ c (Proc.devRef .tc main_v29) = weight (argE m c) := pre_v29 (W0 m ρ c)
theorem at3_v30 (c : Dev nD) : W3 m ρ c (Proc.devRef .tc main_v30) = narrow (argX m c) := pre_v30 (W0 m ρ c)
theorem at3_v31 (c : Dev nD) : W3 m ρ c (Proc.devRef .tc main_v31) = narrow (argW1 m c) := pre_v31 (W0 m ρ c)
theorem at3_v32 (c : Dev nD) : W3 m ρ c (Proc.devRef .tc main_v32) = narrow (argW2 m c) := pre_v32 (W0 m ρ c)
theorem at3_arg3 (c : Dev nD) : W3 m ρ c (Proc.devRef .tc main_arg3) = argB1 m c :=
  pre_pass (by decide) (by decide) (by decide) (W0 m ρ c)
theorem at3_arg5 (c : Dev nD) : W3 m ρ c (Proc.devRef .tc main_arg5) = argB2 m c :=
  pre_pass (by decide) (by decide) (by decide) (W0 m ρ c)

/-! ## At the first pipeline's exit -/

/-- The first product: the pipeline's array, of the narrowed features and the narrowed first weight matrix, is the
    product of the features and the first weight matrix themselves. -/
theorem at4_v33 (c : Dev nD) : W4 m ρ c (Proc.devRef .tc main_v33) = matProd (φ₁ := .f32) (φ₂ := .f32) (argX m c) (argW1 m c) := by
  refine (W4_arr m ρ c 2).trans ((arr0 (V3 m ρ) c).trans ?_)
  show matProd (φ₁ := .bf16) (φ₂ := .bf16) (W3 m ρ c (Proc.devRef .tc main_v30)) (W3 m ρ c (Proc.devRef .tc main_v31)) = _
  rw [at3_v30, at3_v31]
  exact prod_narrow _ _

theorem at4_v3 (c : Dev nD) : W4 m ρ c (Proc.devRef .tc main_v3) = src (argE m c) :=
  (W4_of_ne m ρ c main_v3 (by decide)).trans (at3_v3 m ρ c)
theorem at4_v6 (c : Dev nD) : W4 m ρ c (Proc.devRef .tc main_v6) = dst (argE m c) :=
  (W4_of_ne m ρ c main_v6 (by decide)).trans (at3_v6 m ρ c)
theorem at4_v29 (c : Dev nD) : W4 m ρ c (Proc.devRef .tc main_v29) = weight (argE m c) :=
  (W4_of_ne m ρ c main_v29 (by decide)).trans (at3_v29 m ρ c)
theorem at4_v32 (c : Dev nD) : W4 m ρ c (Proc.devRef .tc main_v32) = narrow (argW2 m c) :=
  (W4_of_ne m ρ c main_v32 (by decide)).trans (at3_v32 m ρ c)
theorem at4_arg3 (c : Dev nD) : W4 m ρ c (Proc.devRef .tc main_arg3) = argB1 m c :=
  (W4_of_ne m ρ c main_arg3 (by decide)).trans (at3_arg3 m ρ c)
theorem at4_arg5 (c : Dev nD) : W4 m ρ c (Proc.devRef .tc main_arg5) = argB2 m c :=
  (W4_of_ne m ρ c main_arg5 (by decide)).trans (at3_arg5 m ρ c)

/-! ## At the second pipeline's entry -/

/-- Layer 1's output over the first product. -/
abbrev hidden (c : Dev nD) : FVec Ideal S50000x96 .f32 :=
  relu96 (aggregate96 (matProd (φ₁ := .f32) (φ₂ := .f32) (argX m c) (argW1 m c))
    (src (argE m c)) (dst (argE m c)) (weight (argE m c)) (argB1 m c))

theorem at7_v51 (c : Dev nD) : W7 m ρ c (Proc.devRef .tc main_v51) = narrow (hidden m c) := by
  refine (mid_v51 (W4 m ρ c)).trans ?_
  rw [at4_v33, at4_v3, at4_v6, at4_v29, at4_arg3]

theorem at7_v32 (c : Dev nD) : W7 m ρ c (Proc.devRef .tc main_v32) = narrow (argW2 m c) :=
  (mid_pass (by decide) (by decide) (by decide) (W4 m ρ c)).trans (at4_v32 m ρ c)
theorem at7_v3 (c : Dev nD) : W7 m ρ c (Proc.devRef .tc main_v3) = src (argE m c) :=
  (mid_pass (by decide) (by decide) (by decide) (W4 m ρ c)).trans (at4_v3 m ρ c)
theorem at7_v6 (c : Dev nD) : W7 m ρ c (Proc.devRef .tc main_v6) = dst (argE m c) :=
  (mid_pass (by decide) (by decide) (by decide) (W4 m ρ c)).trans (at4_v6 m ρ c)
theorem at7_v29 (c : Dev nD) : W7 m ρ c (Proc.devRef .tc main_v29) = weight (argE m c) :=
  (mid_pass (by decide) (by decide) (by decide) (W4 m ρ c)).trans (at4_v29 m ρ c)
theorem at7_arg5 (c : Dev nD) : W7 m ρ c (Proc.devRef .tc main_arg5) = argB2 m c :=
  (mid_pass (by decide) (by decide) (by decide) (W4 m ρ c)).trans (at4_arg5 m ρ c)

/-! ## At the second pipeline's exit -/

/-- The second product: the pipeline's array, of layer 1's narrowed output and the narrowed second weight matrix, is the
    product of layer 1's output and the second weight matrix themselves. -/
theorem at8_v52 (c : Dev nD) : W8 m ρ c (Proc.devRef .tc main_v52) = matProd (φ₁ := .f32) (φ₂ := .f32) (hidden m c) (argW2 m c) := by
  refine (W8_arr m ρ c 2).trans ((arr1 (V7 m ρ) c).trans ?_)
  show matProd (φ₁ := .bf16) (φ₂ := .bf16) (W7 m ρ c (Proc.devRef .tc main_v51)) (W7 m ρ c (Proc.devRef .tc main_v32)) = _
  rw [at7_v51, at7_v32]
  exact prod_narrow _ _

theorem at8_v3 (c : Dev nD) : W8 m ρ c (Proc.devRef .tc main_v3) = src (argE m c) :=
  (W8_of_ne m ρ c main_v3 (by decide)).trans (at7_v3 m ρ c)
theorem at8_v6 (c : Dev nD) : W8 m ρ c (Proc.devRef .tc main_v6) = dst (argE m c) :=
  (W8_of_ne m ρ c main_v6 (by decide)).trans (at7_v6 m ρ c)
theorem at8_v29 (c : Dev nD) : W8 m ρ c (Proc.devRef .tc main_v29) = weight (argE m c) :=
  (W8_of_ne m ρ c main_v29 (by decide)).trans (at7_v29 m ρ c)
theorem at8_arg5 (c : Dev nD) : W8 m ρ c (Proc.devRef .tc main_arg5) = argB2 m c :=
  (W8_of_ne m ρ c main_arg5 (by decide)).trans (at7_arg5 m ρ c)

/-! ## The result -/

/-- The network over the two plain matrix products of the arguments. -/
abbrev value (c : Dev nD) : (⟨S50000x64, .f32⟩ : BufTy).Contents (Elt Ideal) :=
  network (matProd (φ₁ := .f32) (φ₂ := .f32) (argX m c) (argW1 m c))
    (fun z => matProd (φ₁ := .f32) (φ₂ := .f32) (z : FVec Ideal S50000x96 .f32) (argW2 m c))
    (argE m c) (argB1 m c) (argB2 m c)

/-- The last boundary's contents at the result buffer: the network. -/
theorem at10_v69 (c : Dev nD) : W10 m ρ c (Proc.devRef .tc main_v69) = value m c := by
  refine (tail_v69 (W8 m ρ c)).trans ?_
  rw [at8_v52, at8_v3, at8_v6, at8_v29, at8_arg5]
  unfold value network
  rfl

end Cert.KernelIdeal.Result

end
-- ==== Proof.RefHost.lean ====
/-
  The reference's host operations read back, cut where the kernel's program is cut: the edges' data, then the first
  matrix product, layer 1's aggregation and cut at 0, the second product, layer 2's aggregation and cut at 0 — the
  same functions of the arrays as in the kernel's program (Spec), with the host's dot_general where the kernel's
  program launches its pipelines.
-/
import proofs.«111037_j69853348102347_1_alg».proof.Proof.RefOps
import proofs.«111037_j69853348102347_1_alg».proof.Proof.Spec
import proofs.«111037_j69853348102347_1_alg».proof.Proof.LibSingleAssignment
import Idealize.ShloMosaic.Lib.StableHlo.Run

noncomputable section

namespace Cert.ReferenceIdeal.Host

open Cert.ReferenceIdeal Cert.ReferenceIdeal.Gen Cert.ReferenceIdeal.RunP Cert.KernelIdeal.Spec
open Idealize.ShloMosaic Idealize.ShloMosaic.TcCoe Idealize.ShloMosaic.StableHlo
open Cert.Lib.SingleAssignment

variable {F : FTy → Type} [FloatOps F]

/-- Operations 0 … 17: the sources, the targets, the degree's sign and inverse square root. -/
abbrev cA : List (HloOp τ sig (Elt F)) := List.take 18 ops
/-- The buffers it writes, in order. -/
def cAW : List (Ref sig .tc) := [main_v0, main_v1, main_v2, main_v3, main_v4, main_v5, main_v6, main_cst, main_v7, main_cst_0, main_v8, main_v9, main_v10, main_cst_1, main_v11, main_v12, main_v13, main_cst_2]
theorem cA_writes : Writes (cA (F := F)) cAW := by
  simp only [cA, ops, List.take_succ_cons, List.take_zero, List.drop_succ_cons, List.drop_zero]
  repeat' first | exact List.Forall₂.nil | refine List.Forall₂.cons ?_ ?_
  all_goals rfl
/-- A buffer it does not write keeps its contents. -/
theorem cA_pass {r : Ref sig .tc} (hr : r ∉ cAW) (V : Valuation τ sig (Elt F)) :
    after cA V (Proc.devRef .tc r) = V (Proc.devRef .tc r) := after_of_not_mem cA_writes hr V

set_option maxHeartbeats 4000000 in
/-- The sources. -/
theorem cA_v3 (V : Valuation τ sig (Elt F)) :
    after cA V (Proc.devRef .tc main_v3) = src (V (Proc.devRef .tc main_arg1)) := by
  simp only [cA, ops, List.take_succ_cons, List.take_zero, List.drop_succ_cons, List.drop_zero]
  after_results
  all_goals rfl

set_option maxHeartbeats 4000000 in
/-- The targets. -/
theorem cA_v6 (V : Valuation τ sig (Elt F)) :
    after cA V (Proc.devRef .tc main_v6) = dst (V (Proc.devRef .tc main_arg1)) := by
  simp only [cA, ops, List.take_succ_cons, List.take_zero, List.drop_succ_cons, List.drop_zero]
  after_results
  all_goals rfl

set_option maxHeartbeats 4000000 in
/-- Where the degree is positive. -/
theorem cA_v12 (V : Valuation τ sig (Elt F)) :
    after cA V (Proc.devRef .tc main_v12) = degPos (V (Proc.devRef .tc main_arg1)) := by
  simp only [cA, ops, List.take_succ_cons, List.take_zero, List.drop_succ_cons, List.drop_zero]
  after_results
  all_goals rfl

set_option maxHeartbeats 4000000 in
/-- The inverse square root of the degree. -/
theorem cA_v13 (V : Valuation τ sig (Elt F)) :
    after cA V (Proc.devRef .tc main_v13) = degRsqrt (V (Proc.devRef .tc main_arg1)) := by
  simp only [cA, ops, List.take_succ_cons, List.take_zero, List.drop_succ_cons, List.drop_zero]
  after_results
  all_goals rfl

set_option maxHeartbeats 4000000 in
/-- The constant 0 that stands where the degree is not positive. -/
theorem cA_cst2 (V : Valuation τ sig (Elt F)) :
    after cA V (Proc.devRef .tc main_cst_2) = constant S_ .f32 0x00000000#32 := by
  simp only [cA, ops, List.take_succ_cons, List.take_zero, List.drop_succ_cons, List.drop_zero]
  after_results
  all_goals rfl

/-- Operations 18 … 20: the entrywise choice. -/
abbrev cB : List (HloOp τ sig (Elt F)) := List.take 3 (List.drop 18 ops)
/-- The buffers it writes, in order. -/
def cBW : List (Ref sig .tc) := [main_call0_v0, main_call0_v1, main_v14]
theorem cB_writes : Writes (cB (F := F)) cBW := by
  simp only [cB, ops, List.take_succ_cons, List.take_zero, List.drop_succ_cons, List.drop_zero]
  repeat' first | exact List.Forall₂.nil | refine List.Forall₂.cons ?_ ?_
  all_goals rfl
/-- A buffer it does not write keeps its contents. -/
theorem cB_pass {r : Ref sig .tc} (hr : r ∉ cBW) (V : Valuation τ sig (Elt F)) :
    after cB V (Proc.devRef .tc r) = V (Proc.devRef .tc r) := after_of_not_mem cB_writes hr V

set_option maxHeartbeats 4000000 in
/-- dinv from its three ingredients. -/
theorem cB_v14 (V : Valuation τ sig (Elt F)) :
    after cB V (Proc.devRef .tc main_v14) = pick (V (Proc.devRef .tc main_v12)) (V (Proc.devRef .tc main_v13)) (V (Proc.devRef .tc main_cst_2)) := by
  simp only [cB, ops, List.take_succ_cons, List.take_zero, List.drop_succ_cons, List.drop_zero]
  after_results
  all_goals rfl

/-- Operations 21 … 40: the edges' weights and the first matrix product. -/
abbrev cC : List (HloOp τ sig (Elt F)) := List.take 20 (List.drop 21 ops)
/-- The buffers it writes, in order. -/
def cCW : List (Ref sig .tc) := [main_c, main_v15, main_v16, main_c_3, main_v17, main_v18, main_v19, main_v20, main_v21, main_c_4, main_v22, main_v23, main_c_5, main_v24, main_v25, main_v26, main_v27, main_v28, main_v29, main_v30]
theorem cC_writes : Writes (cC (F := F)) cCW := by
  simp only [cC, ops, List.take_succ_cons, List.take_zero, List.drop_succ_cons, List.drop_zero]
  repeat' first | exact List.Forall₂.nil | refine List.Forall₂.cons ?_ ?_
  all_goals rfl
/-- A buffer it does not write keeps its contents. -/
theorem cC_pass {r : Ref sig .tc} (hr : r ∉ cCW) (V : Valuation τ sig (Elt F)) :
    after cC V (Proc.devRef .tc r) = V (Proc.devRef .tc r) := after_of_not_mem cC_writes hr V

set_option maxHeartbeats 4000000 in
/-- The edges' weights from dinv, the sources and the targets. -/
theorem cC_v29 (V : Valuation τ sig (Elt F)) :
    after cC V (Proc.devRef .tc main_v29) = weightOf (V (Proc.devRef .tc main_v14)) (V (Proc.devRef .tc main_v3)) (V (Proc.devRef .tc main_v6)) := by
  simp only [cC, ops, List.take_succ_cons, List.take_zero, List.drop_succ_cons, List.drop_zero]
  after_results_simp
  all_goals rfl

set_option maxHeartbeats 4000000 in
/-- The first matrix product. -/
theorem cC_v30 (V : Valuation τ sig (Elt F)) :
    after cC V (Proc.devRef .tc main_v30) = Host.dotGeneral dot_S50000x128_S128x96_S50000x96_1_0_0_1_n_n none (V (Proc.devRef .tc main_arg0)) (V (Proc.devRef .tc main_arg2)) := by
  simp only [cC, ops, List.take_succ_cons, List.take_zero, List.drop_succ_cons, List.drop_zero]
  after_results_simp
  all_goals rfl

/-- Operations 41 … 59: layer 1's aggregation. -/
abbrev cE : List (HloOp τ sig (Elt F)) := List.take 19 (List.drop 41 ops)
/-- The buffers it writes, in order. -/
def cEW : List (Ref sig .tc) := [main_c_6, main_v31, main_v32, main_c_7, main_v33, main_v34, main_v35, main_v36, main_v37, main_v38, main_v39, main_v40, main_cst_8, main_v41, main_v42, main_v43, main_v44, main_v45, main_v46]
theorem cE_writes : Writes (cE (F := F)) cEW := by
  simp only [cE, ops, List.take_succ_cons, List.take_zero, List.drop_succ_cons, List.drop_zero]
  repeat' first | exact List.Forall₂.nil | refine List.Forall₂.cons ?_ ?_
  all_goals rfl
/-- A buffer it does not write keeps its contents. -/
theorem cE_pass {r : Ref sig .tc} (hr : r ∉ cEW) (V : Valuation τ sig (Elt F)) :
    after cE V (Proc.devRef .tc r) = V (Proc.devRef .tc r) := after_of_not_mem cE_writes hr V

set_option maxHeartbeats 4000000 in
/-- Layer 1 before the cut. -/
theorem cE_v46 (V : Valuation τ sig (Elt F)) :
    after cE V (Proc.devRef .tc main_v46) = aggregate96 (V (Proc.devRef .tc main_v30)) (V (Proc.devRef .tc main_v3)) (V (Proc.devRef .tc main_v6)) (V (Proc.devRef .tc main_v29)) (V (Proc.devRef .tc main_arg3)) := by
  simp only [cE, ops, List.take_succ_cons, List.take_zero, List.drop_succ_cons, List.drop_zero]
  after_results_simp
  all_goals rfl

/-- Operations 60 … 63: the cut at 0 and the second matrix product. -/
abbrev cF : List (HloOp τ sig (Elt F)) := List.take 4 (List.drop 60 ops)
/-- The buffers it writes, in order. -/
def cFW : List (Ref sig .tc) := [main_call1_cst, main_call1_v0, main_v47, main_v48]
theorem cF_writes : Writes (cF (F := F)) cFW := by
  simp only [cF, ops, List.take_succ_cons, List.take_zero, List.drop_succ_cons, List.drop_zero]
  repeat' first | exact List.Forall₂.nil | refine List.Forall₂.cons ?_ ?_
  all_goals rfl
/-- A buffer it does not write keeps its contents. -/
theorem cF_pass {r : Ref sig .tc} (hr : r ∉ cFW) (V : Valuation τ sig (Elt F)) :
    after cF V (Proc.devRef .tc r) = V (Proc.devRef .tc r) := after_of_not_mem cF_writes hr V

set_option maxHeartbeats 4000000 in
/-- The second matrix product, of layer 1's output. -/
theorem cF_v48 (V : Valuation τ sig (Elt F)) :
    after cF V (Proc.devRef .tc main_v48) = Host.dotGeneral dot_S50000x96_S96x64_S50000x64_1_0_0_1_n_n none (relu96 (V (Proc.devRef .tc main_v46))) (V (Proc.devRef .tc main_arg4)) := by
  simp only [cF, ops, List.take_succ_cons, List.take_zero, List.drop_succ_cons, List.drop_zero]
  after_results
  all_goals rfl

/-- Operations 64 … 82: layer 2's aggregation. -/
abbrev cG : List (HloOp τ sig (Elt F)) := List.take 19 (List.drop 64 ops)
/-- The buffers it writes, in order. -/
def cGW : List (Ref sig .tc) := [main_c_9, main_v49, main_v50, main_c_10, main_v51, main_v52, main_v53, main_v54, main_v55, main_v56, main_v57, main_v58, main_cst_11, main_v59, main_v60, main_v61, main_v62, main_v63, main_v64]
theorem cG_writes : Writes (cG (F := F)) cGW := by
  simp only [cG, ops, List.take_succ_cons, List.take_zero, List.drop_succ_cons, List.drop_zero]
  repeat' first | exact List.Forall₂.nil | refine List.Forall₂.cons ?_ ?_
  all_goals rfl
/-- A buffer it does not write keeps its contents. -/
theorem cG_pass {r : Ref sig .tc} (hr : r ∉ cGW) (V : Valuation τ sig (Elt F)) :
    after cG V (Proc.devRef .tc r) = V (Proc.devRef .tc r) := after_of_not_mem cG_writes hr V

set_option maxHeartbeats 4000000 in
/-- Layer 2 before the cut. -/
theorem cG_v64 (V : Valuation τ sig (Elt F)) :
    after cG V (Proc.devRef .tc main_v64) = aggregate64 (V (Proc.devRef .tc main_v48)) (V (Proc.devRef .tc main_v3)) (V (Proc.devRef .tc main_v6)) (V (Proc.devRef .tc main_v29)) (V (Proc.devRef .tc main_arg5)) := by
  simp only [cG, ops, List.take_succ_cons, List.take_zero, List.drop_succ_cons, List.drop_zero]
  after_results_simp
  all_goals rfl

/-- Operations 83 … 85: the cut at 0. -/
abbrev cH : List (HloOp τ sig (Elt F)) := List.drop 83 ops
/-- The buffers it writes, in order. -/
def cHW : List (Ref sig .tc) := [main_call2_cst, main_call2_v0, main_v65]
theorem cH_writes : Writes (cH (F := F)) cHW := by
  simp only [cH, ops, List.take_succ_cons, List.take_zero, List.drop_succ_cons, List.drop_zero]
  repeat' first | exact List.Forall₂.nil | refine List.Forall₂.cons ?_ ?_
  all_goals rfl
/-- A buffer it does not write keeps its contents. -/
theorem cH_pass {r : Ref sig .tc} (hr : r ∉ cHW) (V : Valuation τ sig (Elt F)) :
    after cH V (Proc.devRef .tc r) = V (Proc.devRef .tc r) := after_of_not_mem cH_writes hr V

set_option maxHeartbeats 4000000 in
/-- The cut at 0: the result. -/
theorem cH_v65 (V : Valuation τ sig (Elt F)) :
    after cH V (Proc.devRef .tc main_v65) = relu64 (V (Proc.devRef .tc main_v64)) := by
  simp only [cH, ops, List.take_succ_cons, List.take_zero, List.drop_succ_cons, List.drop_zero]
  after_results
  all_goals rfl

/-- Operations 0 … 40 in a row. -/
abbrev rpre (V : Valuation τ sig (Elt F)) : Valuation τ sig (Elt F) := after cC (after cB (after cA V))
/-- Operations 41 … 63 in a row. -/
abbrev rmid (V : Valuation τ sig (Elt F)) : Valuation τ sig (Elt F) := after cF (after cE V)
/-- Operations 64 … 85 in a row. -/
abbrev rtail (V : Valuation τ sig (Elt F)) : Valuation τ sig (Elt F) := after cH (after cG V)

/-- The whole line is the three parts in a row. -/
theorem ops_split (U : Valuation τ sig (Elt F)) : after ops U = rtail (rmid (rpre U)) := rfl

theorem rpre_pass {r : Ref sig .tc} (h0 : r ∉ cAW) (h1 : r ∉ cBW) (h2 : r ∉ cCW) (V : Valuation τ sig (Elt F)) :
    rpre V (Proc.devRef .tc r) = V (Proc.devRef .tc r) :=
  (cC_pass h2 _).trans ((cB_pass h1 _).trans (cA_pass h0 V))

theorem rmid_pass {r : Ref sig .tc} (h0 : r ∉ cEW) (h1 : r ∉ cFW) (V : Valuation τ sig (Elt F)) :
    rmid V (Proc.devRef .tc r) = V (Proc.devRef .tc r) :=
  (cF_pass h1 _).trans (cE_pass h0 V)

theorem rtail_pass {r : Ref sig .tc} (h0 : r ∉ cGW) (h1 : r ∉ cHW) (V : Valuation τ sig (Elt F)) :
    rtail V (Proc.devRef .tc r) = V (Proc.devRef .tc r) :=
  (cH_pass h1 _).trans (cG_pass h0 V)

theorem rpre_v3 (V : Valuation τ sig (Elt F)) : rpre V (Proc.devRef .tc main_v3) = src (V (Proc.devRef .tc main_arg1)) :=
  (cC_pass (by decide) _).trans ((cB_pass (by decide) _).trans (cA_v3 V))

theorem rpre_v6 (V : Valuation τ sig (Elt F)) : rpre V (Proc.devRef .tc main_v6) = dst (V (Proc.devRef .tc main_arg1)) :=
  (cC_pass (by decide) _).trans ((cB_pass (by decide) _).trans (cA_v6 V))

/-- The weights are those of the edge list. -/
theorem rpre_v29 (V : Valuation τ sig (Elt F)) : rpre V (Proc.devRef .tc main_v29) = weight (V (Proc.devRef .tc main_arg1)) := by
  show after cC (after cB (after cA V)) (Proc.devRef .tc main_v29) = _
  rw [cC_v29, cB_v14, cB_pass (r := main_v3) (by decide), cB_pass (r := main_v6) (by decide), cA_v12, cA_v13, cA_cst2,
    cA_v3, cA_v6]
  rfl

theorem rpre_v30 (V : Valuation τ sig (Elt F)) : rpre V (Proc.devRef .tc main_v30)
    = Host.dotGeneral dot_S50000x128_S128x96_S50000x96_1_0_0_1_n_n none (V (Proc.devRef .tc main_arg0)) (V (Proc.devRef .tc main_arg2)) := by
  show after cC (after cB (after cA V)) (Proc.devRef .tc main_v30) = _
  rw [cC_v30, cB_pass (r := main_arg0) (by decide), cB_pass (r := main_arg2) (by decide), cA_pass (r := main_arg0) (by decide),
    cA_pass (r := main_arg2) (by decide)]

/-- The second product, of layer 1's output, from the first product and the edges' data as the part finds them. -/
theorem rmid_v48 (V : Valuation τ sig (Elt F)) : rmid V (Proc.devRef .tc main_v48)
    = Host.dotGeneral dot_S50000x96_S96x64_S50000x64_1_0_0_1_n_n none (relu96 (aggregate96 (V (Proc.devRef .tc main_v30)) (V (Proc.devRef .tc main_v3)) (V (Proc.devRef .tc main_v6)) (V (Proc.devRef .tc main_v29)) (V (Proc.devRef .tc main_arg3)))) (V (Proc.devRef .tc main_arg4)) := by
  show after cF (after cE V) (Proc.devRef .tc main_v48) = _
  rw [cF_v48, cE_v46, cE_pass (r := main_arg4) (by decide)]

/-- The result from the second product and the edges' data as the part finds them. -/
theorem rtail_v65 (V : Valuation τ sig (Elt F)) : rtail V (Proc.devRef .tc main_v65)
    = relu64 (aggregate64 (V (Proc.devRef .tc main_v48)) (V (Proc.devRef .tc main_v3)) (V (Proc.devRef .tc main_v6)) (V (Proc.devRef .tc main_v29)) (V (Proc.devRef .tc main_arg5))) := by
  show after cH (after cG V) (Proc.devRef .tc main_v65) = _
  rw [cH_v65, cG_v64]

/-- The result of the whole line from the contents it starts from: the network with the host's two products. -/
theorem ops_v65 (U : Valuation τ sig (Elt F)) : after ops U (Proc.devRef .tc main_v65)
    = network (Host.dotGeneral dot_S50000x128_S128x96_S50000x96_1_0_0_1_n_n none (U (Proc.devRef .tc main_arg0)) (U (Proc.devRef .tc main_arg2)))
        (fun z => Host.dotGeneral dot_S50000x96_S96x64_S50000x64_1_0_0_1_n_n none z (U (Proc.devRef .tc main_arg4))) (U (Proc.devRef .tc main_arg1)) (U (Proc.devRef .tc main_arg3)) (U (Proc.devRef .tc main_arg5)) := by
  rw [ops_split, rtail_v65, rmid_v48,
    rmid_pass (r := main_v3) (by decide) (by decide), rmid_pass (r := main_v6) (by decide) (by decide),
    rmid_pass (r := main_v29) (by decide) (by decide), rmid_pass (r := main_arg5) (by decide) (by decide),
    rpre_v30, rpre_v3, rpre_v6, rpre_v29,
    rpre_pass (r := main_arg3) (by decide) (by decide) (by decide), rpre_pass (r := main_arg4) (by decide) (by decide) (by decide),
    rpre_pass (r := main_arg5) (by decide) (by decide) (by decide)]
  rfl

/-- No operation writes an argument. -/
theorem ops_arg {r : Ref sig .tc} (hA : r ∉ cAW) (hB : r ∉ cBW) (hC : r ∉ cCW) (hE : r ∉ cEW) (hF : r ∉ cFW) (hG : r ∉ cGW)
    (hH : r ∉ cHW) (U : Valuation τ sig (Elt F)) : after ops U (Proc.devRef .tc r) = U (Proc.devRef .tc r) := by
  rw [ops_split]
  exact (rtail_pass hG hH _).trans ((rmid_pass hE hF _).trans (rpre_pass hA hB hC U))

end Cert.ReferenceIdeal.Host

end
-- ==== Proof.RefRun.lean ====
/-
  The reference's run and its result as a function of its arguments, at the ideal values: every weakly fair execution
  of its straight line of host operations terminates with each buffer at the fold of the operations over the launch
  contents; no operation writes an argument; and the fold at the result buffer is the network over the host's two
  dot_generals, each of which is the plain matrix product.
-/
import proofs.«111037_j69853348102347_1_alg».proof.Proof.RefHost
import proofs.«111037_j69853348102347_1_alg».proof.Proof.LibMatProdFn

noncomputable section

open Idealize.ShloMosaic Idealize.ShloMosaic.TcCoe Idealize.SL.Sem Idealize.ShloMosaic.StableHlo

namespace Cert.ReferenceIdeal.Result

open Cert.ReferenceIdeal Cert.ReferenceIdeal.Gen Cert.ReferenceIdeal.RunP Cert.ReferenceIdeal.Host Cert.KernelIdeal.Spec Cert.Lib Cert.Lib.MatProdFn

/-- The run of the straight line: every buffer ends at the fold of the operations over the launch contents. -/
theorem run_all {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- The frame: it terminates, nothing faults, and the arguments end as launched (at any float values). -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_arg0).trans (ops_arg (by decide) (by decide) (by decide) (by decide) (by decide) (by decide) (by decide) _),
     (h c main_arg1).trans (ops_arg (by decide) (by decide) (by decide) (by decide) (by decide) (by decide) (by decide) _),
     (h c main_arg2).trans (ops_arg (by decide) (by decide) (by decide) (by decide) (by decide) (by decide) (by decide) _),
     (h c main_arg3).trans (ops_arg (by decide) (by decide) (by decide) (by decide) (by decide) (by decide) (by decide) _),
     (h c main_arg4).trans (ops_arg (by decide) (by decide) (by decide) (by decide) (by decide) (by decide) (by decide) _),
     (h c main_arg5).trans (ops_arg (by decide) (by decide) (by decide) (by decide) (by decide) (by decide) (by decide) _)⟩)
    (run_all m ρ)

/-- The host's first product is the matrix product. -/
theorem dot0_eq (A : FVec Ideal S50000x128 .f32) (B : FVec Ideal S128x96 .f32) :
    Host.dotGeneral dot_S50000x128_S128x96_S50000x96_1_0_0_1_n_n none A B = matProd (φ₁ := .f32) (φ₂ := .f32) A B :=
  dotGeneral_eq_matProd _ none A B

/-- The host's second product is the matrix product. -/
theorem dot1_eq (A : FVec Ideal S50000x96 .f32) (B : FVec Ideal S96x64 .f32) :
    Host.dotGeneral dot_S50000x96_S96x64_S50000x64_1_0_0_1_n_n none A B = matProd (φ₁ := .f32) (φ₂ := .f32) A B :=
  dotGeneral_eq_matProd _ none A B

variable (m : (ℓ : Loc nD τ sig) → Buf (Elt Ideal) ℓ) (ρ : Dev nD → PrngReg)

/-- The network over the two plain matrix products of the arguments. -/
abbrev value (c : Dev nD) : (⟨S50000x64, .f32⟩ : BufTy).Contents (Elt Ideal) :=
  network (matProd (φ₁ := .f32) (φ₂ := .f32) ((m ((c.tc : Thread nD τ).loc main_arg0)) : FVec Ideal S50000x128 .f32) ((m ((c.tc : Thread nD τ).loc main_arg2)) : FVec Ideal S128x96 .f32))
    (fun z => matProd (φ₁ := .f32) (φ₂ := .f32) (z : FVec Ideal S50000x96 .f32) ((m ((c.tc : Thread nD τ).loc main_arg4)) : FVec Ideal S96x64 .f32))
    (m ((c.tc : Thread nD τ).loc main_arg1)) (m ((c.tc : Thread nD τ).loc main_arg3)) (m ((c.tc : Thread nD τ).loc main_arg5))

/-- The fold at the result buffer is the network. -/
theorem result_eq (c : Dev nD) : after ops (launchContents m c) (Proc.devRef .tc main_v65) = value m c := by
  rw [ops_v65, dot0_eq, show (fun z => Host.dotGeneral dot_S50000x96_S96x64_S50000x64_1_0_0_1_n_n none z (launchContents m c (Proc.devRef .tc main_arg4)))
      = (fun z => matProd (φ₁ := .f32) (φ₂ := .f32) (z : FVec Ideal S50000x96 .f32) (launchContents m c (Proc.devRef .tc main_arg4) : FVec Ideal S96x64 .f32)) from
    funext fun z => dot1_eq z _]

/-- The run, read: the result at the network of the arguments, the arguments unchanged. -/
theorem run : θ_run defs (onTc (τ := τ) (main (F := Ideal))) ⟨m, fun _ => 0, ρ⟩ fun r => ∀ c : Dev nD,
      r.2.mem ((c.tc : Thread nD τ).loc main_v65) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v65).trans (result_eq m c),
     (h c main_arg0).trans (ops_arg (by decide) (by decide) (by decide) (by decide) (by decide) (by decide) (by decide) _),
     (h c main_arg1).trans (ops_arg (by decide) (by decide) (by decide) (by decide) (by decide) (by decide) (by decide) _),
     (h c main_arg2).trans (ops_arg (by decide) (by decide) (by decide) (by decide) (by decide) (by decide) (by decide) _),
     (h c main_arg3).trans (ops_arg (by decide) (by decide) (by decide) (by decide) (by decide) (by decide) (by decide) _),
     (h c main_arg4).trans (ops_arg (by decide) (by decide) (by decide) (by decide) (by decide) (by decide) (by decide) _),
     (h c main_arg5).trans (ops_arg (by decide) (by decide) (by decide) (by decide) (by decide) (by decide) (by decide) _)⟩)
    (run_all m ρ)

end Cert.ReferenceIdeal.Result

end
-- ==== Proof.lean ====
/-
  A two-layer graph convolution (50000 nodes, 800000 edges and the self loops; features 128 → 96 → 64) whose two dense
  products X·W₁ and H·W₂ run as pipelined kernels over ten blocks of 5000 rows, with bf16 operands, against the same
  network with the host's two matrix products.

  At the ideal values both programs compute ONE function of the arguments: the edges' sources, targets and weights
  dinv(source)·dinv(target) from the edge list; layer 1 = cut at 0 of (the weighted rows of X·W₁ added up at the edges'
  targets, plus b₁); layer 2 the same over (layer 1)·W₂ with b₂. The programs differ only in how a product is taken.
  The kernel narrows the operands to bf16 — the identity at the ideal values — and its body multiplies a 5000-row block
  of the left operand with the whole right operand into a zero block, which is the sum over the contracted coordinate;
  the ten blocks cover the result, so each pipeline's array ends as the plain product of the whole arrays (Region).
  The reference's dot_general is the same sum (LibMatProdFn). Everything around the products is the same chain of host
  operations in both programs, read back stretch by stretch as the same functions (Spec, HostPre / HostMid /
  HostTail, RefHost). No law of the extended reals beyond these readings is used, so the precondition is not opened.

  The frames of the two kernel programs are the generated ones; the reference's is its straight line's run. The
  idealization rewrote nothing, so `preserves` is trivial.
-/
import proofs.«111037_j69853348102347_1_alg».proof.Defs
import proofs.«111037_j69853348102347_1_alg».proof.Proof.Gen.Kernel
import proofs.«111037_j69853348102347_1_alg».proof.Proof.Gen.Kernel.Skeleton
import proofs.«111037_j69853348102347_1_alg».proof.Proof.Gen.Kernel.Launch
import proofs.«111037_j69853348102347_1_alg».proof.Proof.Gen.Kernel.Points
import proofs.«111037_j69853348102347_1_alg».proof.Proof.Gen.Kernel.Frame
import proofs.«111037_j69853348102347_1_alg».proof.Proof.Gen.KernelIdeal
import proofs.«111037_j69853348102347_1_alg».proof.Proof.Gen.KernelIdeal.Skeleton
import proofs.«111037_j69853348102347_1_alg».proof.Proof.Gen.KernelIdeal.Launch
import proofs.«111037_j69853348102347_1_alg».proof.Proof.Gen.KernelIdeal.Points
import proofs.«111037_j69853348102347_1_alg».proof.Proof.Gen.KernelIdeal.Frame
import proofs.«111037_j69853348102347_1_alg».proof.Proof.Gen.ReferenceIdeal
import proofs.«111037_j69853348102347_1_alg».proof.Proof.Gen.Pre_finite_inputs
import proofs.«111037_j69853348102347_1_alg».proof.Proof.KRun
import proofs.«111037_j69853348102347_1_alg».proof.Proof.KValue
import proofs.«111037_j69853348102347_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Result.frame m ρ

/-- Both runs end with the result at the network over the plain matrix products of their arguments, and the arguments
    agree. -/
theorem algebraic : Cert.algebraic_KernelIdeal_ReferenceIdeal := by
  intro m ρ m' ρ' _ hagree
  refine ⟨fun c => Cert.KernelIdeal.Result.value m c, ?_, ?_⟩
  · exact (θ_run Cert.KernelIdeal.defs _ _).mono
      (fun _ h c => ⟨(h c).1.trans (Cert.KernelIdeal.Result.at10_v69 m ρ c), (h c).2⟩)
      (Cert.KernelIdeal.Run.run_result m ρ)
  · refine (θ_run Cert.ReferenceIdeal.defs _ _).mono (fun _ h c => ⟨(h c).1.trans ?_, (h c).2⟩)
      (Cert.ReferenceIdeal.Result.run m' ρ')
    obtain ⟨e0, e1, e2, e3, e4, e5⟩ := hagree c
    show Cert.KernelIdeal.Spec.network _ _ _ _ _ = Cert.KernelIdeal.Spec.network _ _ _ _ _
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
